-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v104)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v104) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S128x64 .f32) (main_arg6 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128x128 : Shape := ⟨3, ![1, 128, 128]⟩
abbrev S128x128 : Shape := ⟨2, ![128, 128]⟩
abbrev S5000x128 : Shape := ⟨2, ![5000, 128]⟩
abbrev S800000x128 : Shape := ⟨2, ![800000, 128]⟩
abbrev S1x128 : Shape := ⟨2, ![1, 128]⟩
abbrev S128 : Shape := ⟨1, ![128]⟩
abbrev S5000x1 : Shape := ⟨2, ![5000, 1]⟩
abbrev S64x128 : Shape := ⟨2, ![64, 128]⟩
abbrev S64x1 : Shape := ⟨2, ![64, 1]⟩
abbrev S64x64 : Shape := ⟨2, ![64, 64]⟩
abbrev S1x64 : Shape := ⟨2, ![1, 64]⟩

abbrev nBuf : Space → Nat
  | .hbm => 133
  | .vmem => 42
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S128x64, .f32⟩
  | 6 => ⟨S64, .f32⟩
  | 7 => ⟨S1x800000, .i32⟩
  | 8 => ⟨S800000, .i32⟩
  | 9 => ⟨S1x800000, .i32⟩
  | 10 => ⟨S800000, .i32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S_, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S50000, .f32⟩
  | 43 => ⟨S50000x1, .f32⟩
  | 44 => ⟨S1x128x128, .f32⟩
  | 45 => ⟨S128x128, .f32⟩
  | 46 => ⟨S50000x128, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x1, .f32⟩
  | 57 => ⟨S800000x128, .f32⟩
  | 58 => ⟨S800000x128, .f32⟩
  | 59 => ⟨S_, .f32⟩
  | 60 => ⟨S50000x128, .f32⟩
  | 61 => ⟨S800000x1, .i32⟩
  | 62 => ⟨S50000x128, .f32⟩
  | 63 => ⟨S1x128, .f32⟩
  | 64 => ⟨S128, .f32⟩
  | 65 => ⟨S1x128, .f32⟩
  | 66 => ⟨S50000x128, .f32⟩
  | 67 => ⟨S1x128x128, .f32⟩
  | 68 => ⟨S128x128, .f32⟩
  | 69 => ⟨S50000x128, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S800000x1, .f32⟩
  | 80 => ⟨S800000x128, .f32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S1x128, .f32⟩
  | 87 => ⟨S128, .f32⟩
  | 88 => ⟨S1x128, .f32⟩
  | 89 => ⟨S50000x128, .f32⟩
  | 90 => ⟨S1x128x128, .f32⟩
  | 91 => ⟨S128x128, .f32⟩
  | 92 => ⟨S50000x128, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x128, .f32⟩
  | 102 => ⟨S800000x1, .f32⟩
  | 103 => ⟨S800000x128, .f32⟩
  | 104 => ⟨S800000x128, .f32⟩
  | 105 => ⟨S_, .f32⟩
  | 106 => ⟨S50000x128, .f32⟩
  | 107 => ⟨S800000x1, .i32⟩
  | 108 => ⟨S50000x128, .f32⟩
  | 109 => ⟨S1x128, .f32⟩
  | 110 => ⟨S128, .f32⟩
  | 111 => ⟨S1x128, .f32⟩
  | 112 => ⟨S50000x128, .f32⟩
  | 113 => ⟨S_, .f32⟩
  | 114 => ⟨S50000, .f32⟩
  | 115 => ⟨S_, .f32⟩
  | 116 => ⟨S64, .f32⟩
  | 117 => ⟨S50000x1, .i32⟩
  | 118 => ⟨S64, .f32⟩
  | 119 => ⟨S_, .f32⟩
  | 120 => ⟨S64x128, .f32⟩
  | 121 => ⟨S50000x1, .i32⟩
  | 122 => ⟨S64x128, .f32⟩
  | 123 => ⟨S_, .f32⟩
  | 124 => ⟨S64, .f32⟩
  | 125 => ⟨S64, .f32⟩
  | 126 => ⟨S64x1, .f32⟩
  | 127 => ⟨S64x128, .f32⟩
  | _ => ⟨S50000x128, .f32⟩

abbrev hbmTy0_1 (i : Nat) : BufTy := match i % 128 with
  | 0 => ⟨S64x128, .f32⟩
  | 1 => ⟨S64x64, .f32⟩
  | 2 => ⟨S1x64, .f32⟩
  | 3 => ⟨S64x64, .f32⟩
  | 4 => ⟨S64x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .f32⟩
  | .local _ .vmem, ⟨38, _⟩ => ⟨S5000x1, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_9 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_12 : Ref sig .tc := ⟨.hbm, 93, rfl⟩
abbrev main_v72 : Ref sig .tc := ⟨.hbm, 94, rfl⟩
abbrev main_v73 : Ref sig .tc := ⟨.hbm, 95, rfl⟩
abbrev main_c_13 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_14 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_15 : Ref sig .tc := ⟨.hbm, 113, rfl⟩
abbrev main_v89 : Ref sig .tc := ⟨.hbm, 114, rfl⟩
abbrev main_cst_16 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_17 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_18 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S5000x1_S5000x128 : S5000x1.Broadcasts S5000x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64 : S_.BroadcastsInDim S64 (![] : Fin 0 → Fin S64.rank)
  bcast_S50000_S50000x1_0 : S50000.BroadcastsInDim S50000x1 (![0] : Fin 1 → Fin S50000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x64_S64x64_1_0_0_1_n_n_wf : DotDims.WF S64x128 S128x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v84) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v28) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v87) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128x128 : Shape := ⟨3, ![1, 128, 128]⟩
abbrev S128x128 : Shape := ⟨2, ![128, 128]⟩
abbrev S800000x128 : Shape := ⟨2, ![800000, 128]⟩
abbrev S50000x1 : Shape := ⟨2, ![50000, 1]⟩
abbrev S1x128 : Shape := ⟨2, ![1, 128]⟩
abbrev S128 : Shape := ⟨1, ![128]⟩
abbrev S64x128 : Shape := ⟨2, ![64, 128]⟩
abbrev S64x1 : Shape := ⟨2, ![64, 1]⟩
abbrev S64x64 : Shape := ⟨2, ![64, 64]⟩
abbrev S1x64 : Shape := ⟨2, ![1, 64]⟩

abbrev nBuf : Space → Nat
  | .hbm => 156
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S128x64, .f32⟩
  | 6 => ⟨S64, .f32⟩
  | 7 => ⟨S1x800000, .i32⟩
  | 8 => ⟨S800000, .i32⟩
  | 9 => ⟨S1x800000, .i32⟩
  | 10 => ⟨S800000, .i32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .f32⟩
  | 20 => ⟨S_, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S50000, .f32⟩
  | 43 => ⟨S1x128x128, .f32⟩
  | 44 => ⟨S128x128, .f32⟩
  | 45 => ⟨S50000x128, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000x128, .f32⟩
  | 55 => ⟨S800000x1, .f32⟩
  | 56 => ⟨S800000x128, .f32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S50000x1, .f32⟩
  | 63 => ⟨S50000x128, .f32⟩
  | 64 => ⟨S50000x128, .f32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S1x128x128, .f32⟩
  | 75 => ⟨S128x128, .f32⟩
  | 76 => ⟨S50000x128, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x128, .f32⟩
  | 86 => ⟨S800000x1, .f32⟩
  | 87 => ⟨S800000x128, .f32⟩
  | 88 => ⟨S800000x128, .f32⟩
  | 89 => ⟨S_, .f32⟩
  | 90 => ⟨S50000x128, .f32⟩
  | 91 => ⟨S800000x1, .i32⟩
  | 92 => ⟨S50000x128, .f32⟩
  | 93 => ⟨S50000x1, .f32⟩
  | 94 => ⟨S50000x128, .f32⟩
  | 95 => ⟨S50000x128, .f32⟩
  | 96 => ⟨S50000x128, .f32⟩
  | 97 => ⟨S1x128, .f32⟩
  | 98 => ⟨S128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S1x128x128, .f32⟩
  | 106 => ⟨S128x128, .f32⟩
  | 107 => ⟨S50000x128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S800000x1, .f32⟩
  | 118 => ⟨S800000x128, .f32⟩
  | 119 => ⟨S800000x128, .f32⟩
  | 120 => ⟨S_, .f32⟩
  | 121 => ⟨S50000x128, .f32⟩
  | 122 => ⟨S800000x1, .i32⟩
  | 123 => ⟨S50000x128, .f32⟩
  | 124 => ⟨S50000x1, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S_, .f32⟩
  | 9 => ⟨S50000, .f32⟩
  | 10 => ⟨S_, .f32⟩
  | 11 => ⟨S64, .f32⟩
  | 12 => ⟨S50000x1, .i32⟩
  | 13 => ⟨S64, .f32⟩
  | 14 => ⟨S_, .f32⟩
  | 15 => ⟨S64x128, .f32⟩
  | 16 => ⟨S50000x1, .i32⟩
  | 17 => ⟨S64x128, .f32⟩
  | 18 => ⟨S_, .f32⟩
  | 19 => ⟨S64, .f32⟩
  | 20 => ⟨S64, .f32⟩
  | 21 => ⟨S64x1, .f32⟩
  | 22 => ⟨S64x128, .f32⟩
  | 23 => ⟨S64x128, .f32⟩
  | 24 => ⟨S64x64, .f32⟩
  | 25 => ⟨S1x64, .f32⟩
  | 26 => ⟨S64x64, .f32⟩
  | 27 => ⟨S64x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_9 : Ref sig .tc := ⟨.hbm, 77, rfl⟩
abbrev main_v57 : Ref sig .tc := ⟨.hbm, 78, rfl⟩
abbrev main_v58 : Ref sig .tc := ⟨.hbm, 79, rfl⟩
abbrev main_c_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_call1_cst : Ref sig .tc := ⟨.hbm, 102, rfl⟩
abbrev main_call1_v0 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_c_12 : Ref sig .tc := ⟨.hbm, 108, rfl⟩
abbrev main_v83 : Ref sig .tc := ⟨.hbm, 109, rfl⟩
abbrev main_v84 : Ref sig .tc := ⟨.hbm, 110, rfl⟩
abbrev main_c_13 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_14 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_call2_cst : Ref sig .tc := ⟨.hbm, 133, rfl⟩
abbrev main_call2_v0 : Ref sig .tc := ⟨.hbm, 134, rfl⟩
abbrev main_v105 : Ref sig .tc := ⟨.hbm, 135, rfl⟩
abbrev main_cst_15 : Ref sig .tc := ⟨.hbm, 136, rfl⟩
abbrev main_v106 : Ref sig .tc := ⟨.hbm, 137, rfl⟩
abbrev main_cst_16 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_17 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_18 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x128x128_S1x128x128_0_0_0 : S3x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x64_S64x64_1_0_0_1_n_n_wf : DotDims.WF S64x128 S128x64 S64x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

class Facts : Prop extends Facts₀ where

variable [Facts]
-- ==== Proof.KernelRun.lean ====
/-
  The idealized kernel's run with its RESULT named. The program is thirteen segments — seven stretches of host
  operations alternating with six pipelined regions — and every segment is entered from the buffer contents the previous
  one leaves: a host stretch folds its operations over them, a region replaces its arrays by what its write-backs leave.
  So every terminating execution ends with each unscoped buffer at the last fold's contents; read at the result buffer
  this names the program's value, read at an argument it is the launch contents (no segment writes an argument).
-/
import proofs.«164881_j16020228014637_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel terminates, nothing faulting, with the result buffer at the
    last boundary's contents (the fold of all thirteen segments over the launch memory) and the arguments as launched. -/
theorem run_value : θ_run defs (onTc (τ := τ) (main (F := F))) ⟨m, fun _ => 0, ρ⟩ (fun r => ∀ c : Dev nD,
      r.2.mem ((c.tc : Thread nD τ).loc main_v104) = W13 m ρ c (Proc.devRef .tc main_v104)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v104 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c)⟩)

end Cert.KernelIdeal.GcnRun

end
-- ==== Proof.Spec.lean ====
/-
  The two node-wise steps of a graph-convolution layer, as whole-array functions over the extended reals.

  A layer takes the node features `x : [50000, 128]`, forms `h = x · W` (a dense product with a square weight),
  gathers and scatter-adds `h` along the edges into `agg`, and combines: `relu (agg + h * s + b)`, where `s` is the
  per-node self-loop weight (one column) and `b` the bias (one row). `denseProduct` and `combine` state the first and the
  last of these index by index; the edge traffic between them is the same chain of host operations in both programs and
  is never opened.
-/
import Idealize.ShloMosaic.PureOps.Ideal
import Idealize.ShloMosaic.Lib.ValueIdx

noncomputable section

open scoped BigOperators

namespace Cert.Gcn

open Idealize.ShloMosaic Idealize.ShloMosaic.ValueIdx

/-- The row coordinate of an index of a two-axis array, typed by the literal extent. -/
abbrev row {n0 n1 : Nat} (j : (⟨2, ![n0, n1]⟩ : Shape).Idx) : Fin n0 := ⟨(j 0).val, idx2_lt0 j⟩
/-- The column coordinate of an index of a two-axis array, typed by the literal extent. -/
abbrev col {n0 n1 : Nat} (j : (⟨2, ![n0, n1]⟩ : Shape).Idx) : Fin n1 := ⟨(j 1).val, idx2_lt1 j⟩

/-- Every index of a two-axis array is the pair of its row and its column. -/
theorem eq_row_col {n0 n1 : Nat} (j : (⟨2, ![n0, n1]⟩ : Shape).Idx) : j = ix2 (row j) (col j) := by
  funext a; match a with | ⟨0, _⟩ => rfl | ⟨1, _⟩ => rfl

/-- `x · W`: entry `(r, c)` is the sum over `k` of `x[r, k] * W[k, c]`. -/
def denseProduct (x : FVec Ideal ⟨2, ![50000, 128]⟩ .f32) (w : FVec Ideal ⟨2, ![128, 128]⟩ .f32) :
    FVec Ideal ⟨2, ![50000, 128]⟩ .f32 :=
  fun j => ∑ k : Fin 128, x (ix2 (row j) k) * w (ix2 k (col j))

/-- `relu (agg + h * s + b)`: entry `(r, c)` is `max (agg[r, c] + h[r, c] * s[r, 0] + b[0, c]) 0`. -/
def combine (agg h : FVec Ideal ⟨2, ![50000, 128]⟩ .f32) (s : FVec Ideal ⟨2, ![50000, 1]⟩ .f32)
    (b : FVec Ideal ⟨2, ![1, 128]⟩ .f32) : FVec Ideal ⟨2, ![50000, 128]⟩ .f32 :=
  fun j => max (agg j + h j * s (ix2 (row j) (0 : Fin 1)) + b (ix2 (0 : Fin 1) (col j))) (Ideal.ofBits .f32 0x00000000#32)

end Cert.Gcn

end
-- ==== Proof.DenseRegion0.lean ====
/-
  The first dense product of the network, read off the ten row blocks the pipeline writes back.

  The region multiplies the node features x : [50000, 128] by a square weight W : [128, 128]. The grid has ten
  points; point t stages rows 5000·t … 5000·t + 4999 of x, the whole of W, and writes back the same rows of the
  result. Over the extended reals the narrowing of the operands is the identity and the product into a zero
  accumulator is the plain sum over the contraction index, so what point t writes back is block t of the
  whole-array function (x · W)[r, c] = ∑ k, x[r, k] · W[k, c]; the ten blocks tile the rows, hence the array
  ends holding x · W.
-/
import proofs.«164881_j16020228014637_1_alg».proof.Proof.Gen.KernelIdeal.Frame
import proofs.«164881_j16020228014637_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.GcnRegion

open Cert.KernelIdeal Cert.KernelIdeal.Gen Idealize.ShloMosaic Idealize.ShloMosaic.TcCoe Idealize.ShloMosaic.ValueIdx
open Idealize.ShloMosaic.Pipeline (Dat)

/-- The offsets of an access to a whole block are zero on both axes. -/
theorem zeroOffsets0 : (![0, 0] : Fin 2 → Nat) = fun _ => 0 := funext fun a => by fin_cases a <;> rfl

/-! ## The block product at an entry -/

/-- The left operand's row is the output's row, whatever the contraction position. -/
theorem lhsRow0 (i : S5000x128.Idx) (u : dot_S5000x128_S128x128_S5000x128_1_0_0_1_n_n.contr.Idx) :
    (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contraction position. -/
theorem lhsCol0 (i : S5000x128.Idx) (u : dot_S5000x128_S128x128_S5000x128_1_0_0_1_n_n.contr.Idx) :
    (dot_S5000x128_S128x128_S5000x128_1_0_0_1_n_n.lhsIdx i u 1).val = (u ⟨0, by decide⟩).val :=
  dot_S5000x128_S128x128_S5000x128_1_0_0_1_n_n.lhsIdx_val_of_single rfl i u

/-- The right operand's row is the contraction position. -/
theorem rhsRow0 (i : S5000x128.Idx) (u : dot_S5000x128_S128x128_S5000x128_1_0_0_1_n_n.contr.Idx) :
    (dot_S5000x128_S128x128_S5000x128_1_0_0_1_n_n.rhsIdx i u 0).val = (u ⟨0, by decide⟩).val :=
  dot_S5000x128_S128x128_S5000x128_1_0_0_1_n_n.rhsIdx_val_of_single rfl i u

/-- The right operand's column is the output's column. -/
theorem rhsCol0 (i : S5000x128.Idx) (u : dot_S5000x128_S128x128_S5000x128_1_0_0_1_n_n.contr.Idx) :
    (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (p, q) of the block the body stores is the sum over k of x0[p, k] · x1[k, q]: the narrowing of the
    operands and the cast of the weight to its own shape are identities on extended reals, and the accumulator
    is zero. -/
theorem blockProduct0 (x0 : FVec Ideal S5000x128 .f32) (x1 : FVec Ideal S128x128 .f32) (p : Fin 5000) (q : Fin 128) :
    k0_pay1 (F := Ideal) x0 x1 (ix2 p q) = ∑ k : Fin 128, x0 (ix2 p k) * x1 (ix2 k q) := by
  unfold k0_pay1
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhsRow0 _ _
      | ⟨1, _⟩ => exact (lhsCol0 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhsRow0 _ _).trans hk
      | ⟨1, _⟩ => exact rhsCol0 _ _)
  rw [truncf_apply, truncf_apply, shapeCast_self, el, er]

/-- The same entry, for a block whose operands are rows n·5000 … of x and the whole of w, is the entry of
    x · w at the array index with that row offset. -/
theorem blockOfProduct0 (x : FVec Ideal S50000x128 .f32) (w : FVec Ideal S128x128 .f32)
    (x0 : FVec Ideal S5000x128 .f32) (x1 : FVec Ideal S128x128 .f32) (n : Nat) (hn : n < 10)
    (hx0 : ∀ (p : Fin 5000) (k : Fin 128), x0 (ix2 p k) = x (ix2 (⟨n * 5000 + p.val, by omega⟩ : Fin 50000) k))
    (hx1 : ∀ (k q : Fin 128), x1 (ix2 k q) = w (ix2 k q))
    (p : Fin 5000) (q : Fin 128) (i : S50000x128.Idx) (hi0 : (i 0).val = n * 5000 + p.val) (hi1 : (i 1).val = q.val) :
    k0_pay1 (F := Ideal) x0 x1 (ix2 p q) = Cert.Gcn.denseProduct x w i := by
  rw [blockProduct0]
  unfold Cert.Gcn.denseProduct
  refine Finset.sum_congr rfl fun k _ => ?_
  rw [hx0, hx1]
  have e0 : (⟨n * 5000 + p.val, by omega⟩ : Fin 50000) = Cert.Gcn.row i := Fin.ext hi0.symm
  have e1 : q = Cert.Gcn.col i := Fin.ext hi1.symm
  rw [e0, e1]

/-! ## From the ten blocks to the array -/

/-- The printed index maps, decided over the grid: the row blocks of x and of the result move with the point,
    the weight's one block stays. -/
theorem indexMaps0 : ∀ t : Fin cfg0.N, t.val < 10
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of x · W, for x and W as the region finds them. -/
theorem flushedBlock0 (c : Dev nD) (t : Fin cfg0.N) :
    (dat0 (F := Ideal) V c).flushed 2 t
      = ((cfg0.win 2).blk t).view.read (Elt Ideal) (Cert.Gcn.denseProduct (V c main_arg0) (V c main_v30)) := by
  show (cfg0.win 2).cut (grid0.coords t) ((dat0 (F := Ideal) V c).after 2 t) = _
  rw [after0_2]
  unfold out0_2
  rw [View.canon_unit_zero zeroOffsets0]
  simp only [View.ld_unit_zero (S := S5000x128) zeroOffsets0, View.ld_unit_zero (S := S128x128) zeroOffsets0]
  obtain ⟨ht, e00, e01, e10, e11, e20, e21⟩ := indexMaps0 t
  funext j
  obtain ⟨p, q, rfl⟩ : ∃ (p : Fin 5000) (q : Fin 128), j = ix2 p q := ⟨j 0, j 1, eq_ix2 j⟩
  refine blockOfProduct0 (V c main_arg0) (V c main_v30) _ _ t.val ht ?_ ?_ p q _ ?_ ?_
  · intro p k
    show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k q
    show V c main_v30 (((cfg0.win 1).blk t).view.emb (ix2 k q)) = V c main_v30 _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show win0_2.index t (0 : Fin 2) * 5000 + 1 * p.val = t.val * 5000 + p.val; omega
  · show win0_2.index t (1 : Fin 2) * 128 + 1 * q.val = q.val; omega

/-- An index of the array is in point t's block iff each coordinate is in the block's range on its axis. -/
theorem memBlock0 (t : Fin cfg0.N) (i : S50000x128.Idx) :
    i ∈ ((cfg0.win 2).blk t).view.set
      ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Every row lies in the block of the point numbered by the row divided by 5000. -/
theorem rowsCovered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, e20, e21⟩ := indexMaps0 t
  have ht : t.val = (i 0).val / 5000 := rfl
  refine ⟨t, flush0_2 t, ?_⟩
  rw [memBlock0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array the region leaves is x · W. -/
theorem dense0 (c : Dev nD) :
    (dat0 (F := Ideal) V c).arrAt 2 cfg0.N = Cert.Gcn.denseProduct (V c main_arg0) (V c main_v30) :=
  (dat0 (F := Ideal) V c).arrAt_eq_of_cover 2 (Cert.Gcn.denseProduct (V c main_arg0) (V c main_v30))
    (fun t _ => flushedBlock0 V c t) rowsCovered0

end Cert.KernelIdeal.GcnRegion

end
-- ==== Proof.DenseRegion2.lean ====
/-
  The second dense product of the network, read off the ten row blocks the pipeline writes back.

  The region multiplies the first layer's output x : [50000, 128] by a square weight W : [128, 128]. The grid has ten
  points; point t stages rows 5000·t … 5000·t + 4999 of x, the whole of W, and writes back the same rows of the
  result. Over the extended reals the narrowing of the operands is the identity and the product into a zero
  accumulator is the plain sum over the contraction index, so what point t writes back is block t of the
  whole-array function (x · W)[r, c] = ∑ k, x[r, k] · W[k, c]; the ten blocks tile the rows, hence the array
  ends holding x · W.
-/
import proofs.«164881_j16020228014637_1_alg».proof.Proof.Gen.KernelIdeal.Frame
import proofs.«164881_j16020228014637_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.GcnRegion

open Cert.KernelIdeal Cert.KernelIdeal.Gen Idealize.ShloMosaic Idealize.ShloMosaic.TcCoe Idealize.ShloMosaic.ValueIdx
open Idealize.ShloMosaic.Pipeline (Dat)

/-- The offsets of an access to a whole block are zero on both axes. -/
theorem zeroOffsets2 : (![0, 0] : Fin 2 → Nat) = fun _ => 0 := funext fun a => by fin_cases a <;> rfl

/-! ## The block product at an entry -/

/-- The left operand's row is the output's row, whatever the contraction position. -/
theorem lhsRow2 (i : S5000x128.Idx) (u : dot_S5000x128_S128x128_S5000x128_1_0_0_1_n_n.contr.Idx) :
    (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contraction position. -/
theorem lhsCol2 (i : S5000x128.Idx) (u : dot_S5000x128_S128x128_S5000x128_1_0_0_1_n_n.contr.Idx) :
    (dot_S5000x128_S128x128_S5000x128_1_0_0_1_n_n.lhsIdx i u 1).val = (u ⟨0, by decide⟩).val :=
  dot_S5000x128_S128x128_S5000x128_1_0_0_1_n_n.lhsIdx_val_of_single rfl i u

/-- The right operand's row is the contraction position. -/
theorem rhsRow2 (i : S5000x128.Idx) (u : dot_S5000x128_S128x128_S5000x128_1_0_0_1_n_n.contr.Idx) :
    (dot_S5000x128_S128x128_S5000x128_1_0_0_1_n_n.rhsIdx i u 0).val = (u ⟨0, by decide⟩).val :=
  dot_S5000x128_S128x128_S5000x128_1_0_0_1_n_n.rhsIdx_val_of_single rfl i u

/-- The right operand's column is the output's column. -/
theorem rhsCol2 (i : S5000x128.Idx) (u : dot_S5000x128_S128x128_S5000x128_1_0_0_1_n_n.contr.Idx) :
    (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (p, q) of the block the body stores is the sum over k of x0[p, k] · x1[k, q]: the narrowing of the
    operands and the cast of the weight to its own shape are identities on extended reals, and the accumulator
    is zero. -/
theorem blockProduct2 (x0 : FVec Ideal S5000x128 .f32) (x1 : FVec Ideal S128x128 .f32) (p : Fin 5000) (q : Fin 128) :
    k2_pay1 (F := Ideal) x0 x1 (ix2 p q) = ∑ k : Fin 128, x0 (ix2 p k) * x1 (ix2 k q) := by
  unfold k2_pay1
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhsRow2 _ _
      | ⟨1, _⟩ => exact (lhsCol2 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhsRow2 _ _).trans hk
      | ⟨1, _⟩ => exact rhsCol2 _ _)
  rw [truncf_apply, truncf_apply, shapeCast_self, shapeCast_self, el, er]

/-- The same entry, for a block whose operands are rows n·5000 … of x and the whole of w, is the entry of
    x · w at the array index with that row offset. -/
theorem blockOfProduct2 (x : FVec Ideal S50000x128 .f32) (w : FVec Ideal S128x128 .f32)
    (x0 : FVec Ideal S5000x128 .f32) (x1 : FVec Ideal S128x128 .f32) (n : Nat) (hn : n < 10)
    (hx0 : ∀ (p : Fin 5000) (k : Fin 128), x0 (ix2 p k) = x (ix2 (⟨n * 5000 + p.val, by omega⟩ : Fin 50000) k))
    (hx1 : ∀ (k q : Fin 128), x1 (ix2 k q) = w (ix2 k q))
    (p : Fin 5000) (q : Fin 128) (i : S50000x128.Idx) (hi0 : (i 0).val = n * 5000 + p.val) (hi1 : (i 1).val = q.val) :
    k2_pay1 (F := Ideal) x0 x1 (ix2 p q) = Cert.Gcn.denseProduct x w i := by
  rw [blockProduct2]
  unfold Cert.Gcn.denseProduct
  refine Finset.sum_congr rfl fun k _ => ?_
  rw [hx0, hx1]
  have e0 : (⟨n * 5000 + p.val, by omega⟩ : Fin 50000) = Cert.Gcn.row i := Fin.ext hi0.symm
  have e1 : q = Cert.Gcn.col i := Fin.ext hi1.symm
  rw [e0, e1]

/-! ## From the ten blocks to the array -/

/-- The printed index maps, decided over the grid: the row blocks of x and of the result move with the point,
    the weight's one block stays. -/
theorem indexMaps2 : ∀ t : Fin cfg2.N, t.val < 10
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of x · W, for x and W as the region finds them. -/
theorem flushedBlock2 (c : Dev nD) (t : Fin cfg2.N) :
    (dat2 (F := Ideal) V c).flushed 2 t
      = ((cfg2.win 2).blk t).view.read (Elt Ideal) (Cert.Gcn.denseProduct (V c main_v48) (V c main_v50)) := by
  show (cfg2.win 2).cut (grid2.coords t) ((dat2 (F := Ideal) V c).after 2 t) = _
  rw [after2_2]
  unfold out2_2
  rw [View.canon_unit_zero zeroOffsets2]
  simp only [View.ld_unit_zero (S := S5000x128) zeroOffsets2, View.ld_unit_zero (S := S128x128) zeroOffsets2]
  obtain ⟨ht, e00, e01, e10, e11, e20, e21⟩ := indexMaps2 t
  funext j
  obtain ⟨p, q, rfl⟩ : ∃ (p : Fin 5000) (q : Fin 128), j = ix2 p q := ⟨j 0, j 1, eq_ix2 j⟩
  refine blockOfProduct2 (V c main_v48) (V c main_v50) _ _ t.val ht ?_ ?_ p q _ ?_ ?_
  · intro p k
    show V c main_v48 (((cfg2.win 0).blk t).view.emb (ix2 p k)) = V c main_v48 _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · intro k q
    show V c main_v50 (((cfg2.win 1).blk t).view.emb (ix2 k q)) = V c main_v50 _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  · show win2_2.index t (0 : Fin 2) * 5000 + 1 * p.val = t.val * 5000 + p.val; omega
  · show win2_2.index t (1 : Fin 2) * 128 + 1 * q.val = q.val; omega

/-- An index of the array is in point t's block iff each coordinate is in the block's range on its axis. -/
theorem memBlock2 (t : Fin cfg2.N) (i : S50000x128.Idx) :
    i ∈ ((cfg2.win 2).blk t).view.set
      ↔ ∀ a : Fin 2, win2_2.index t a * S5000x128.size a ≤ (i a).val ∧ (i a).val < win2_2.index t a * S5000x128.size a + S5000x128.size a := by
  show i ∈ ((View.whole main_v51).slice (win2_2.rect t)).set ↔ _
  rw [View.set_slice_whole, Rect.mem_set_unit]
  exact Iff.rfl

/-- Every row lies in the block of the point numbered by the row divided by 5000. -/
theorem rowsCovered2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, e20, e21⟩ := indexMaps2 t
  have ht : t.val = (i 0).val / 5000 := rfl
  refine ⟨t, flush2_2 t, ?_⟩
  rw [memBlock2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The array the region leaves is x · W. -/
theorem dense2 (c : Dev nD) :
    (dat2 (F := Ideal) V c).arrAt 2 cfg2.N = Cert.Gcn.denseProduct (V c main_v48) (V c main_v50) :=
  (dat2 (F := Ideal) V c).arrAt_eq_of_cover 2 (Cert.Gcn.denseProduct (V c main_v48) (V c main_v50))
    (fun t _ => flushedBlock2 V c t) rowsCovered2

end Cert.KernelIdeal.GcnRegion

end
-- ==== Proof.DenseRegion4.lean ====
/-
  The third dense product of the network, read off the ten row blocks the pipeline writes back.

  The region multiplies the second layer's output x : [50000, 128] by a square weight W : [128, 128]. The grid has ten
  points; point t stages rows 5000·t … 5000·t + 4999 of x, the whole of W, and writes back the same rows of the
  result. Over the extended reals the narrowing of the operands is the identity and the product into a zero
  accumulator is the plain sum over the contraction index, so what point t writes back is block t of the
  whole-array function (x · W)[r, c] = ∑ k, x[r, k] · W[k, c]; the ten blocks tile the rows, hence the array
  ends holding x · W.
-/
import proofs.«164881_j16020228014637_1_alg».proof.Proof.Gen.KernelIdeal.Frame
import proofs.«164881_j16020228014637_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.GcnRegion

open Cert.KernelIdeal Cert.KernelIdeal.Gen Idealize.ShloMosaic Idealize.ShloMosaic.TcCoe Idealize.ShloMosaic.ValueIdx
open Idealize.ShloMosaic.Pipeline (Dat)

/-- The offsets of an access to a whole block are zero on both axes. -/
theorem zeroOffsets4 : (![0, 0] : Fin 2 → Nat) = fun _ => 0 := funext fun a => by fin_cases a <;> rfl

/-! ## The block product at an entry -/

/-- The left operand's row is the output's row, whatever the contraction position. -/
theorem lhsRow4 (i : S5000x128.Idx) (u : dot_S5000x128_S128x128_S5000x128_1_0_0_1_n_n.contr.Idx) :
    (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The left operand's column is the contraction position. -/
theorem lhsCol4 (i : S5000x128.Idx) (u : dot_S5000x128_S128x128_S5000x128_1_0_0_1_n_n.contr.Idx) :
    (dot_S5000x128_S128x128_S5000x128_1_0_0_1_n_n.lhsIdx i u 1).val = (u ⟨0, by decide⟩).val :=
  dot_S5000x128_S128x128_S5000x128_1_0_0_1_n_n.lhsIdx_val_of_single rfl i u

/-- The right operand's row is the contraction position. -/
theorem rhsRow4 (i : S5000x128.Idx) (u : dot_S5000x128_S128x128_S5000x128_1_0_0_1_n_n.contr.Idx) :
    (dot_S5000x128_S128x128_S5000x128_1_0_0_1_n_n.rhsIdx i u 0).val = (u ⟨0, by decide⟩).val :=
  dot_S5000x128_S128x128_S5000x128_1_0_0_1_n_n.rhsIdx_val_of_single rfl i u

/-- The right operand's column is the output's column. -/
theorem rhsCol4 (i : S5000x128.Idx) (u : dot_S5000x128_S128x128_S5000x128_1_0_0_1_n_n.contr.Idx) :
    (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (p, q) of the block the body stores is the sum over k of x0[p, k] · x1[k, q]: the narrowing of the
    operands and the cast of the weight to its own shape are identities on extended reals, and the accumulator
    is zero. -/
theorem blockProduct4 (x0 : FVec Ideal S5000x128 .f32) (x1 : FVec Ideal S128x128 .f32) (p : Fin 5000) (q : Fin 128) :
    k4_pay1 (F := Ideal) x0 x1 (ix2 p q) = ∑ k : Fin 128, x0 (ix2 p k) * x1 (ix2 k q) := by
  unfold k4_pay1
  simp only [matmul]
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q)
      ((contrEquiv1 dot_S5000x128_S128x128_S5000x128_1_0_0_1_n_n 128 rfl rfl).symm k) = ix2 p k :=
    funext fun a => Fin.ext (by
      match a with
      | ⟨0, _⟩ => exact lhsRow4 _ _
      | ⟨1, _⟩ => exact (lhsCol4 _ _).trans hk)
  have er : dot_S5000x128_S128x128_S5000x128_1_0_0_1_n_n.rhsIdx (ix2 p q)
      ((contrEquiv1 dot_S5000x128_S128x128_S5000x128_1_0_0_1_n_n 128 rfl rfl).symm k) = ix2 k q :=
    funext fun a => Fin.ext (by
      match a with
      | ⟨0, _⟩ => exact (rhsRow4 _ _).trans hk
      | ⟨1, _⟩ => exact rhsCol4 _ _)
  rw [truncf_apply, truncf_apply, shapeCast_self, shapeCast_self, el, er]

/-- The same entry, for a block whose operands are rows n·5000 … of x and the whole of w, is the entry of
    x · w at the array index with that row offset. -/
theorem blockOfProduct4 (x : FVec Ideal S50000x128 .f32) (w : FVec Ideal S128x128 .f32)
    (x0 : FVec Ideal S5000x128 .f32) (x1 : FVec Ideal S128x128 .f32) (n : Nat) (hn : n < 10)
    (hx0 : ∀ (p : Fin 5000) (k : Fin 128), x0 (ix2 p k) = x (ix2 (⟨n * 5000 + p.val, by omega⟩ : Fin 50000) k))
    (hx1 : ∀ (k q : Fin 128), x1 (ix2 k q) = w (ix2 k q))
    (p : Fin 5000) (q : Fin 128) (i : S50000x128.Idx) (hi0 : (i 0).val = n * 5000 + p.val) (hi1 : (i 1).val = q.val) :
    k4_pay1 (F := Ideal) x0 x1 (ix2 p q) = Cert.Gcn.denseProduct x w i := by
  rw [blockProduct4]
  unfold Cert.Gcn.denseProduct
  refine Finset.sum_congr rfl fun k _ => ?_
  rw [hx0, hx1]
  have e0 : (⟨n * 5000 + p.val, by omega⟩ : Fin 50000) = Cert.Gcn.row i := Fin.ext hi0.symm
  have e1 : q = Cert.Gcn.col i := Fin.ext hi1.symm
  rw [e0, e1]

/-! ## From the ten blocks to the array -/

/-- The printed index maps, decided over the grid: the row blocks of x and of the result move with the point,
    the weight's one block stays. -/
theorem indexMaps4 : ∀ t : Fin cfg4.N, t.val < 10
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What point t writes back is block t of x · W, for x and W as the region finds them. -/
theorem flushedBlock4 (c : Dev nD) (t : Fin cfg4.N) :
    (dat4 (F := Ideal) V c).flushed 2 t
      = ((cfg4.win 2).blk t).view.read (Elt Ideal) (Cert.Gcn.denseProduct (V c main_v68) (V c main_v70)) := by
  show (cfg4.win 2).cut (grid4.coords t) ((dat4 (F := Ideal) V c).after 2 t) = _
  rw [after4_2]
  unfold out4_2
  rw [View.canon_unit_zero zeroOffsets4]
  simp only [View.ld_unit_zero (S := S5000x128) zeroOffsets4, View.ld_unit_zero (S := S128x128) zeroOffsets4]
  obtain ⟨ht, e00, e01, e10, e11, e20, e21⟩ := indexMaps4 t
  funext j
  obtain ⟨p, q, rfl⟩ : ∃ (p : Fin 5000) (q : Fin 128), j = ix2 p q := ⟨j 0, j 1, eq_ix2 j⟩
  refine blockOfProduct4 (V c main_v68) (V c main_v70) _ _ t.val ht ?_ ?_ p q _ ?_ ?_
  · intro p k
    show V c main_v68 (((cfg4.win 0).blk t).view.emb (ix2 p k)) = V c main_v68 _
    refine congrArg _ (funext fun a => Fin.ext ?_)
    match a with
    | ⟨0, _⟩ => show win4_0.index t (0 : Fin 2) * 5000 + 1 * p.val = t.val * 5000 + p.val; omega
    | ⟨1, _⟩ => show win4_0.index t (1 : Fin 2) * 128 + 1 * k.val = k.val; omega
  · intro k q
    show V c main_v70 (((cfg4.win 1).blk t).view.emb (ix2 k q)) = V c main_v70 _
    refine congrArg _ (funext fun a => Fin.ext ?_)
    match a with
    | ⟨0, _⟩ => show win4_1.index t (0 : Fin 2) * 128 + 1 * k.val = k.val; omega
    | ⟨1, _⟩ => show win4_1.index t (1 : Fin 2) * 128 + 1 * q.val = q.val; omega
  · show win4_2.index t (0 : Fin 2) * 5000 + 1 * p.val = t.val * 5000 + p.val; omega
  · show win4_2.index t (1 : Fin 2) * 128 + 1 * q.val = q.val; omega

/-- An index of the array is in point t's block iff each coordinate is in the block's range on its axis. -/
theorem memBlock4 (t : Fin cfg4.N) (i : S50000x128.Idx) :
    i ∈ ((cfg4.win 2).blk t).view.set
      ↔ ∀ a : Fin 2, win4_2.index t a * S5000x128.size a ≤ (i a).val ∧ (i a).val < win4_2.index t a * S5000x128.size a + S5000x128.size a := by
  show i ∈ ((View.whole main_v71).slice (win4_2.rect t)).set ↔ _
  rw [View.set_slice_whole, Rect.mem_set_unit]
  exact Iff.rfl

/-- Every row lies in the block of the point numbered by the row divided by 5000. -/
theorem rowsCovered4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨-, -, -, -, -, e20, e21⟩ := indexMaps4 t
  have ht : t.val = (i 0).val / 5000 := rfl
  refine ⟨t, flush4_2 t, ?_⟩
  rw [memBlock4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The array the region leaves is x · W. -/
theorem dense4 (c : Dev nD) :
    (dat4 (F := Ideal) V c).arrAt 2 cfg4.N = Cert.Gcn.denseProduct (V c main_v68) (V c main_v70) :=
  (dat4 (F := Ideal) V c).arrAt_eq_of_cover 2 (Cert.Gcn.denseProduct (V c main_v68) (V c main_v70))
    (fun t _ => flushedBlock4 V c t) rowsCovered4

end Cert.KernelIdeal.GcnRegion

end
-- ==== Proof.CombineRegion1.lean ====
/-
  The first combine region of the graph-convolution network, from blocks to the whole array.

  The region runs over ten grid points. Point `t` stages rows `5000·t … 5000·t + 4999` of the aggregated features
  `agg` and of the dense product `h` (both `[50000, 128]`), the same rows of the self-loop column `s` (`[50000, 1]`),
  and the whole bias row `b` (`[1, 128]`); its body stores, at `(p, q)` of the `5000 × 128` output block,
  `max (agg[p, q] + h[p, q] * s[p, 0] + b[0, q]) 0`. Hence what point `t` writes back is block `t` of the one
  whole-array function `Cert.Gcn.combine agg h s b`; the ten row blocks cover the `[50000, 128]` output, so the output
  array ends holding `combine agg h s b`.
-/
import proofs.«164881_j16020228014637_1_alg».proof.Proof.Gen.KernelIdeal.Frame
import proofs.«164881_j16020228014637_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.GcnRegion

open Cert.KernelIdeal Cert.KernelIdeal.Gen Idealize.ShloMosaic Idealize.ShloMosaic.TcCoe Idealize.ShloMosaic.ValueIdx
open Idealize.ShloMosaic.Pipeline (Dat)

/-- The zero offsets of a two-axis rectangle, as the constant function. -/
theorem zeroOffsets1 : (![0, 0] : Fin 2 → Nat) = fun _ => 0 := funext fun a => by fin_cases a <;> rfl

/-- An `[a, 1]` column broadcast to `[a, b]` reads, at `(p, c)`, the column's entry of row `p`. -/
theorem broadcastColumn1 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at `(p, q)` of the block: `max (x0[p, q] + x1[p, q] * x2[p, 0] + x3[0, q]) 0`. The casts to
    the same shape are identities, the column and the row are read through their broadcasts, the rest is pointwise. -/
theorem payloadAt1 (x0 x1 : Vec Ideal S5000x128 .f32) (x2 : Vec Ideal S5000x1 .f32) (x3 : Vec Ideal S1x128 .f32)
    (p : Fin 5000) (q : Fin 128) :
    k1_pay1 (F := Ideal) x0 x1 x2 x3 (ix2 p q)
      = max (x0 (ix2 p q) + x1 (ix2 p q) * x2 (ix2 p (0 : Fin 1)) + x3 (ix2 (0 : Fin 1) q)) (Ideal.ofBits .f32 0x00000000#32) := by
  unfold k1_pay1
  simp only [shapeCast_self]
  rw [maximumf_apply, addf_apply, addf_apply, mulf_apply, broadcast_apply, broadcastColumn1, broadcastTo_1b_ab_apply]
  rfl

/-- The printed index maps over the ten grid points: at point `t` the three row-blocked inputs and the output sit at
    block `(t, 0)`, the bias row at block `(0, 0)`. -/
theorem indexMaps1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- One entry of one block. If the four staged blocks hold, at `(p, q)`, at `(p, 0)` and at `(0, q)`, the entries of the
    whole arrays that the array index `i` names — `agg[i]`, `h[i]`, `s[row i, 0]`, `b[0, col i]` — then the body's
    payload at `(p, q)` is `combine agg h s b` at `i`. -/
theorem entryEq1 (A H : FVec Ideal ⟨2, ![50000, 128]⟩ .f32) (S : FVec Ideal ⟨2, ![50000, 1]⟩ .f32)
    (B : FVec Ideal ⟨2, ![1, 128]⟩ .f32)
    (x0 x1 : Vec Ideal S5000x128 .f32) (x2 : Vec Ideal S5000x1 .f32) (x3 : Vec Ideal S1x128 .f32)
    (p : Fin 5000) (q : Fin 128) (i : (⟨2, ![50000, 128]⟩ : Shape).Idx)
    (h0 : x0 (ix2 p q) = A i) (h1 : x1 (ix2 p q) = H i)
    (h2 : x2 (ix2 p (0 : Fin 1)) = S (ix2 (Cert.Gcn.row i) (0 : Fin 1)))
    (h3 : x3 (ix2 (0 : Fin 1) q) = B (ix2 (0 : Fin 1) (Cert.Gcn.col i))) :
    k1_pay1 (F := Ideal) x0 x1 x2 x3 (ix2 p q) = Cert.Gcn.combine A H S B i := by
  rw [payloadAt1, h0, h1, h2, h3]
  rfl

/-- What point `t` writes back is block `t` of `combine agg h s b`, the arrays as the region finds them: the output
    block's entry `(p, q)` sits at row `5000·t + p`, column `q` of the array; the blocks of `agg` and `h` at the same
    place, the column's block at row `5000·t + p`, the bias row's at column `q`. -/
theorem flushedEq1 (V : (c : Dev nD) → (b : Ref sig .tc) → Buf (Elt Ideal) ((c : Thread nD τ).loc b)) (c : Dev nD)
    (t : Fin cfg1.N) :
    (dat1 (F := Ideal) V c).flushed 4 t
      = ((cfg1.win 4).blk t).view.read (Elt Ideal)
          (Cert.Gcn.combine (V c main_v44) (V c main_v31) (V c main_v28) (V c main_v47)) := by
  show (cfg1.win 4).cut (grid1.coords t) ((dat1 (F := Ideal) V c).after 4 t) = _
  rw [after1_4]
  unfold out1_4
  rw [View.canon_unit_zero zeroOffsets1]
  simp only [View.ld_unit_zero (S := S5000x128) zeroOffsets1, View.ld_unit_zero (S := S5000x1) zeroOffsets1,
    View.ld_unit_zero (S := S1x128) zeroOffsets1]
  obtain ⟨e00, e01, e10, e11, e20, e21, e30, e31, e40, e41⟩ := indexMaps1 t
  refine funext fun (j : S5000x128.Idx) => ?_
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (ix2 p q)
    = Cert.Gcn.combine (V c main_v44) (V c main_v31) (V c main_v28) (V c main_v47)
        (((cfg1.win 4).blk t).view.emb (ix2 p q))
  refine entryEq1 _ _ _ _ _ _ _ _ p q _ ?_ ?_ ?_ ?_
  · show V c main_v44 (((cfg1.win 0).blk t).view.emb (ix2 p q)) = V c main_v44 (((cfg1.win 4).blk t).view.emb (ix2 p q))
    refine congrArg _ (funext fun a => Fin.ext ?_)
    match a with
    | ⟨0, _⟩ =>
      show win1_0.index t (0 : Fin 2) * 5000 + 1 * p.val = win1_4.index t (0 : Fin 2) * 5000 + 1 * p.val
      omega
    | ⟨1, _⟩ =>
      show win1_0.index t (1 : Fin 2) * 128 + 1 * q.val = win1_4.index t (1 : Fin 2) * 128 + 1 * q.val
      omega
  · show V c main_v31 (((cfg1.win 1).blk t).view.emb (ix2 p q)) = V c main_v31 (((cfg1.win 4).blk t).view.emb (ix2 p q))
    refine congrArg _ (funext fun a => Fin.ext ?_)
    match a with
    | ⟨0, _⟩ =>
      show win1_1.index t (0 : Fin 2) * 5000 + 1 * p.val = win1_4.index t (0 : Fin 2) * 5000 + 1 * p.val
      omega
    | ⟨1, _⟩ =>
      show win1_1.index t (1 : Fin 2) * 128 + 1 * q.val = win1_4.index t (1 : Fin 2) * 128 + 1 * q.val
      omega
  · show V c main_v28 (((cfg1.win 2).blk t).view.emb (ix2 p (0 : Fin 1)))
      = V c main_v28 (ix2 (Cert.Gcn.row (((cfg1.win 4).blk t).view.emb (ix2 p q))) (0 : Fin 1))
    refine congrArg _ (funext fun a => Fin.ext ?_)
    match a with
    | ⟨0, _⟩ =>
      show win1_2.index t (0 : Fin 2) * 5000 + 1 * p.val = win1_4.index t (0 : Fin 2) * 5000 + 1 * p.val
      omega
    | ⟨1, _⟩ =>
      show win1_2.index t (1 : Fin 2) * 1 + 1 * 0 = 0
      omega
  · show V c main_v47 (((cfg1.win 3).blk t).view.emb (ix2 (0 : Fin 1) q))
      = V c main_v47 (ix2 (0 : Fin 1) (Cert.Gcn.col (((cfg1.win 4).blk t).view.emb (ix2 p q))))
    refine congrArg _ (funext fun a => Fin.ext ?_)
    match a with
    | ⟨0, _⟩ =>
      show win1_3.index t (0 : Fin 2) * 1 + 1 * 0 = 0
      omega
    | ⟨1, _⟩ =>
      show win1_3.index t (1 : Fin 2) * 128 + 1 * q.val = win1_4.index t (1 : Fin 2) * 128 + 1 * q.val
      omega

/-- An index of the output array is in point `t`'s block iff each coordinate is in the block's range on its axis. -/
theorem memBlock1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v48).slice (win1_4.rect t)).set ↔ _
  rw [View.set_slice_whole, Rect.mem_set_unit]
  exact Iff.rfl

/-- The ten row blocks cover the output array: row `r` is in the block of point `r / 5000`. -/
theorem covered1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by omega⟩, rfl⟩
  obtain ⟨-, -, -, -, -, -, -, -, e40, e41⟩ := indexMaps1 t
  refine ⟨t, flush1_4 t, ?_⟩
  rw [memBlock1]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- After the region's ten write-backs the output array is `combine agg h s b` of the arrays the region was entered
    with: every point writes its block of that one function, and the blocks cover the array. -/
theorem combine1 (V : (c : Dev nD) → (b : Ref sig .tc) → Buf (Elt Ideal) ((c : Thread nD τ).loc b)) (c : Dev nD) :
    (dat1 (F := Ideal) V c).arrAt 4 cfg1.N
      = Cert.Gcn.combine (V c main_v44) (V c main_v31) (V c main_v28) (V c main_v47) :=
  (dat1 (F := Ideal) V c).arrAt_eq_of_cover 4
    (Cert.Gcn.combine (V c main_v44) (V c main_v31) (V c main_v28) (V c main_v47))
    (fun t _ => flushedEq1 V c t) covered1

end Cert.KernelIdeal.GcnRegion

end
-- ==== Proof.CombineRegion3.lean ====
/-
  The second combine region of the graph-convolution network, from blocks to the whole array.

  The region runs over ten grid points. Point `t` stages rows `5000·t … 5000·t + 4999` of the aggregated features
  `agg` and of the dense product `h` (both `[50000, 128]`), the same rows of the self-loop column `s` (`[50000, 1]`),
  and the whole bias row `b` (`[1, 128]`); its body stores, at `(p, q)` of the `5000 × 128` output block,
  `max (agg[p, q] + h[p, q] * s[p, 0] + b[0, q]) 0`. Hence what point `t` writes back is block `t` of the one
  whole-array function `Cert.Gcn.combine agg h s b`; the ten row blocks cover the `[50000, 128]` output, so the output
  array ends holding `combine agg h s b`.
-/
import proofs.«164881_j16020228014637_1_alg».proof.Proof.Gen.KernelIdeal.Frame
import proofs.«164881_j16020228014637_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.GcnRegion

open Cert.KernelIdeal Cert.KernelIdeal.Gen Idealize.ShloMosaic Idealize.ShloMosaic.TcCoe Idealize.ShloMosaic.ValueIdx
open Idealize.ShloMosaic.Pipeline (Dat)

/-- The zero offsets of a two-axis rectangle, as the constant function. -/
theorem zeroOffsets3 : (![0, 0] : Fin 2 → Nat) = fun _ => 0 := funext fun a => by fin_cases a <;> rfl

/-- An `[a, 1]` column broadcast to `[a, b]` reads, at `(p, c)`, the column's entry of row `p`. -/
theorem broadcastColumn3 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at `(p, q)` of the block: `max (x0[p, q] + x1[p, q] * x2[p, 0] + x3[0, q]) 0`. The casts to
    the same shape are identities, the column and the row are read through their broadcasts, the rest is pointwise. -/
theorem payloadAt3 (x0 x1 : Vec Ideal S5000x128 .f32) (x2 : Vec Ideal S5000x1 .f32) (x3 : Vec Ideal S1x128 .f32)
    (p : Fin 5000) (q : Fin 128) :
    k3_pay1 (F := Ideal) x0 x1 x2 x3 (ix2 p q)
      = max (x0 (ix2 p q) + x1 (ix2 p q) * x2 (ix2 p (0 : Fin 1)) + x3 (ix2 (0 : Fin 1) q)) (Ideal.ofBits .f32 0x00000000#32) := by
  unfold k3_pay1
  simp only [shapeCast_self]
  rw [maximumf_apply, addf_apply, addf_apply, mulf_apply, broadcast_apply, broadcastColumn3, broadcastTo_1b_ab_apply]
  rfl

/-- The printed index maps over the ten grid points: at point `t` the three row-blocked inputs and the output sit at
    block `(t, 0)`, the bias row at block `(0, 0)`. -/
theorem indexMaps3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- One entry of one block. If the four staged blocks hold, at `(p, q)`, at `(p, 0)` and at `(0, q)`, the entries of the
    whole arrays that the array index `i` names — `agg[i]`, `h[i]`, `s[row i, 0]`, `b[0, col i]` — then the body's
    payload at `(p, q)` is `combine agg h s b` at `i`. -/
theorem entryEq3 (A H : FVec Ideal ⟨2, ![50000, 128]⟩ .f32) (S : FVec Ideal ⟨2, ![50000, 1]⟩ .f32)
    (B : FVec Ideal ⟨2, ![1, 128]⟩ .f32)
    (x0 x1 : Vec Ideal S5000x128 .f32) (x2 : Vec Ideal S5000x1 .f32) (x3 : Vec Ideal S1x128 .f32)
    (p : Fin 5000) (q : Fin 128) (i : (⟨2, ![50000, 128]⟩ : Shape).Idx)
    (h0 : x0 (ix2 p q) = A i) (h1 : x1 (ix2 p q) = H i)
    (h2 : x2 (ix2 p (0 : Fin 1)) = S (ix2 (Cert.Gcn.row i) (0 : Fin 1)))
    (h3 : x3 (ix2 (0 : Fin 1) q) = B (ix2 (0 : Fin 1) (Cert.Gcn.col i))) :
    k3_pay1 (F := Ideal) x0 x1 x2 x3 (ix2 p q) = Cert.Gcn.combine A H S B i := by
  rw [payloadAt3, h0, h1, h2, h3]
  rfl

/-- What point `t` writes back is block `t` of `combine agg h s b`, the arrays as the region finds them: the output
    block's entry `(p, q)` sits at row `5000·t + p`, column `q` of the array; the blocks of `agg` and `h` at the same
    place, the column's block at row `5000·t + p`, the bias row's at column `q`. -/
theorem flushedEq3 (V : (c : Dev nD) → (b : Ref sig .tc) → Buf (Elt Ideal) ((c : Thread nD τ).loc b)) (c : Dev nD)
    (t : Fin cfg3.N) :
    (dat3 (F := Ideal) V c).flushed 4 t
      = ((cfg3.win 4).blk t).view.read (Elt Ideal)
          (Cert.Gcn.combine (V c main_v64) (V c main_v51) (V c main_v28) (V c main_v67)) := by
  show (cfg3.win 4).cut (grid3.coords t) ((dat3 (F := Ideal) V c).after 4 t) = _
  rw [after3_4]
  unfold out3_4
  rw [View.canon_unit_zero zeroOffsets3]
  simp only [View.ld_unit_zero (S := S5000x128) zeroOffsets3, View.ld_unit_zero (S := S5000x1) zeroOffsets3,
    View.ld_unit_zero (S := S1x128) zeroOffsets3]
  obtain ⟨e00, e01, e10, e11, e20, e21, e30, e31, e40, e41⟩ := indexMaps3 t
  refine funext fun (j : S5000x128.Idx) => ?_
  obtain ⟨p, q, rfl⟩ : ∃ (p : Fin 5000) (q : Fin 128), j = ix2 p q := ⟨j 0, j 1, eq_ix2 j⟩
  show k3_pay1 (F := Ideal) (iblk3 V c 0 t) (iblk3 V c 1 t) (iblk3 V c 2 t) (iblk3 V c 3 t) (ix2 p q)
    = Cert.Gcn.combine (V c main_v64) (V c main_v51) (V c main_v28) (V c main_v67)
        (((cfg3.win 4).blk t).view.emb (ix2 p q))
  refine entryEq3 _ _ _ _ _ _ _ _ p q _ ?_ ?_ ?_ ?_
  · show V c main_v64 (((cfg3.win 0).blk t).view.emb (ix2 p q)) = V c main_v64 (((cfg3.win 4).blk t).view.emb (ix2 p q))
    refine congrArg _ (funext fun a => Fin.ext ?_)
    match a with
    | ⟨0, _⟩ =>
      show win3_0.index t (0 : Fin 2) * 5000 + 1 * p.val = win3_4.index t (0 : Fin 2) * 5000 + 1 * p.val
      omega
    | ⟨1, _⟩ =>
      show win3_0.index t (1 : Fin 2) * 128 + 1 * q.val = win3_4.index t (1 : Fin 2) * 128 + 1 * q.val
      omega
  · show V c main_v51 (((cfg3.win 1).blk t).view.emb (ix2 p q)) = V c main_v51 (((cfg3.win 4).blk t).view.emb (ix2 p q))
    refine congrArg _ (funext fun a => Fin.ext ?_)
    match a with
    | ⟨0, _⟩ =>
      show win3_1.index t (0 : Fin 2) * 5000 + 1 * p.val = win3_4.index t (0 : Fin 2) * 5000 + 1 * p.val
      omega
    | ⟨1, _⟩ =>
      show win3_1.index t (1 : Fin 2) * 128 + 1 * q.val = win3_4.index t (1 : Fin 2) * 128 + 1 * q.val
      omega
  · show V c main_v28 (((cfg3.win 2).blk t).view.emb (ix2 p (0 : Fin 1)))
      = V c main_v28 (ix2 (Cert.Gcn.row (((cfg3.win 4).blk t).view.emb (ix2 p q))) (0 : Fin 1))
    refine congrArg _ (funext fun a => Fin.ext ?_)
    match a with
    | ⟨0, _⟩ =>
      show win3_2.index t (0 : Fin 2) * 5000 + 1 * p.val = win3_4.index t (0 : Fin 2) * 5000 + 1 * p.val
      omega
    | ⟨1, _⟩ =>
      show win3_2.index t (1 : Fin 2) * 1 + 1 * 0 = 0
      omega
  · show V c main_v67 (((cfg3.win 3).blk t).view.emb (ix2 (0 : Fin 1) q))
      = V c main_v67 (ix2 (0 : Fin 1) (Cert.Gcn.col (((cfg3.win 4).blk t).view.emb (ix2 p q))))
    refine congrArg _ (funext fun a => Fin.ext ?_)
    match a with
    | ⟨0, _⟩ =>
      show win3_3.index t (0 : Fin 2) * 1 + 1 * 0 = 0
      omega
    | ⟨1, _⟩ =>
      show win3_3.index t (1 : Fin 2) * 128 + 1 * q.val = win3_4.index t (1 : Fin 2) * 128 + 1 * q.val
      omega

/-- An index of the output array is in point `t`'s block iff each coordinate is in the block's range on its axis. -/
theorem memBlock3 (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v68).slice (win3_4.rect t)).set ↔ _
  rw [View.set_slice_whole, Rect.mem_set_unit]
  exact Iff.rfl

/-- The ten row blocks cover the output array: row `r` is in the block of point `r / 5000`. -/
theorem covered3 (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by omega⟩, rfl⟩
  obtain ⟨-, -, -, -, -, -, -, -, e40, e41⟩ := indexMaps3 t
  refine ⟨t, flush3_4 t, ?_⟩
  rw [memBlock3]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 128 ≤ (i 1).val ∧ (i 1).val < win3_4.index t (1 : Fin 2) * 128 + 128
    omega

/-- After the region's ten write-backs the output array is `combine agg h s b` of the arrays the region was entered
    with: every point writes its block of that one function, and the blocks cover the array. -/
theorem combine3 (V : (c : Dev nD) → (b : Ref sig .tc) → Buf (Elt Ideal) ((c : Thread nD τ).loc b)) (c : Dev nD) :
    (dat3 (F := Ideal) V c).arrAt 4 cfg3.N
      = Cert.Gcn.combine (V c main_v64) (V c main_v51) (V c main_v28) (V c main_v67) :=
  (dat3 (F := Ideal) V c).arrAt_eq_of_cover 4
    (Cert.Gcn.combine (V c main_v64) (V c main_v51) (V c main_v28) (V c main_v67))
    (fun t _ => flushedEq3 V c t) covered3

end Cert.KernelIdeal.GcnRegion

end
-- ==== Proof.CombineRegion5.lean ====
/-
  The third combine region of the graph-convolution network, from blocks to the whole array.

  The region runs over ten grid points. Point `t` stages rows `5000·t … 5000·t + 4999` of the aggregated features
  `agg` and of the dense product `h` (both `[50000, 128]`), the same rows of the self-loop column `s` (`[50000, 1]`),
  and the whole bias row `b` (`[1, 128]`); its body stores, at `(p, q)` of the `5000 × 128` output block,
  `max (agg[p, q] + h[p, q] * s[p, 0] + b[0, q]) 0`. Hence what point `t` writes back is block `t` of the one
  whole-array function `Cert.Gcn.combine agg h s b`; the ten row blocks cover the `[50000, 128]` output, so the output
  array ends holding `combine agg h s b`.
-/
import proofs.«164881_j16020228014637_1_alg».proof.Proof.Gen.KernelIdeal.Frame
import proofs.«164881_j16020228014637_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.GcnRegion

open Cert.KernelIdeal Cert.KernelIdeal.Gen Idealize.ShloMosaic Idealize.ShloMosaic.TcCoe Idealize.ShloMosaic.ValueIdx
open Idealize.ShloMosaic.Pipeline (Dat)

/-- The zero offsets of a two-axis rectangle, as the constant function. -/
theorem zeroOffsets5 : (![0, 0] : Fin 2 → Nat) = fun _ => 0 := funext fun a => by fin_cases a <;> rfl

/-- An `[a, 1]` column broadcast to `[a, b]` reads, at `(p, c)`, the column's entry of row `p`. -/
theorem broadcastColumn5 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at `(p, q)` of the block: `max (x0[p, q] + x1[p, q] * x2[p, 0] + x3[0, q]) 0`. The casts to
    the same shape are identities, the column and the row are read through their broadcasts, the rest is pointwise. -/
theorem payloadAt5 (x0 x1 : Vec Ideal S5000x128 .f32) (x2 : Vec Ideal S5000x1 .f32) (x3 : Vec Ideal S1x128 .f32)
    (p : Fin 5000) (q : Fin 128) :
    k5_pay1 (F := Ideal) x0 x1 x2 x3 (ix2 p q)
      = max (x0 (ix2 p q) + x1 (ix2 p q) * x2 (ix2 p (0 : Fin 1)) + x3 (ix2 (0 : Fin 1) q)) (Ideal.ofBits .f32 0x00000000#32) := by
  unfold k5_pay1
  simp only [shapeCast_self]
  rw [maximumf_apply, addf_apply, addf_apply, mulf_apply, broadcast_apply, broadcastColumn5, broadcastTo_1b_ab_apply]
  rfl

/-- The printed index maps over the ten grid points: at point `t` the three row-blocked inputs and the output sit at
    block `(t, 0)`, the bias row at block `(0, 0)`. -/
theorem indexMaps5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- One entry of one block. If the four staged blocks hold, at `(p, q)`, at `(p, 0)` and at `(0, q)`, the entries of the
    whole arrays that the array index `i` names — `agg[i]`, `h[i]`, `s[row i, 0]`, `b[0, col i]` — then the body's
    payload at `(p, q)` is `combine agg h s b` at `i`. -/
theorem entryEq5 (A H : FVec Ideal ⟨2, ![50000, 128]⟩ .f32) (S : FVec Ideal ⟨2, ![50000, 1]⟩ .f32)
    (B : FVec Ideal ⟨2, ![1, 128]⟩ .f32)
    (x0 x1 : Vec Ideal S5000x128 .f32) (x2 : Vec Ideal S5000x1 .f32) (x3 : Vec Ideal S1x128 .f32)
    (p : Fin 5000) (q : Fin 128) (i : (⟨2, ![50000, 128]⟩ : Shape).Idx)
    (h0 : x0 (ix2 p q) = A i) (h1 : x1 (ix2 p q) = H i)
    (h2 : x2 (ix2 p (0 : Fin 1)) = S (ix2 (Cert.Gcn.row i) (0 : Fin 1)))
    (h3 : x3 (ix2 (0 : Fin 1) q) = B (ix2 (0 : Fin 1) (Cert.Gcn.col i))) :
    k5_pay1 (F := Ideal) x0 x1 x2 x3 (ix2 p q) = Cert.Gcn.combine A H S B i := by
  rw [payloadAt5, h0, h1, h2, h3]
  rfl

/-- What point `t` writes back is block `t` of `combine agg h s b`, the arrays as the region finds them: the output
    block's entry `(p, q)` sits at row `5000·t + p`, column `q` of the array; the blocks of `agg` and `h` at the same
    place, the column's block at row `5000·t + p`, the bias row's at column `q`. -/
theorem flushedEq5 (V : (c : Dev nD) → (b : Ref sig .tc) → Buf (Elt Ideal) ((c : Thread nD τ).loc b)) (c : Dev nD)
    (t : Fin cfg5.N) :
    (dat5 (F := Ideal) V c).flushed 4 t
      = ((cfg5.win 4).blk t).view.read (Elt Ideal)
          (Cert.Gcn.combine (V c main_v84) (V c main_v71) (V c main_v28) (V c main_v87)) := by
  show (cfg5.win 4).cut (grid5.coords t) ((dat5 (F := Ideal) V c).after 4 t) = _
  rw [after5_4]
  unfold out5_4
  rw [View.canon_unit_zero zeroOffsets5]
  simp only [View.ld_unit_zero (S := S5000x128) zeroOffsets5, View.ld_unit_zero (S := S5000x1) zeroOffsets5,
    View.ld_unit_zero (S := S1x128) zeroOffsets5]
  obtain ⟨e00, e01, e10, e11, e20, e21, e30, e31, e40, e41⟩ := indexMaps5 t
  refine funext fun (j : S5000x128.Idx) => ?_
  obtain ⟨p, q, rfl⟩ : ∃ (p : Fin 5000) (q : Fin 128), j = ix2 p q := ⟨j 0, j 1, eq_ix2 j⟩
  show k5_pay1 (F := Ideal) (iblk5 V c 0 t) (iblk5 V c 1 t) (iblk5 V c 2 t) (iblk5 V c 3 t) (ix2 p q)
    = Cert.Gcn.combine (V c main_v84) (V c main_v71) (V c main_v28) (V c main_v87)
        (((cfg5.win 4).blk t).view.emb (ix2 p q))
  refine entryEq5 _ _ _ _ _ _ _ _ p q _ ?_ ?_ ?_ ?_
  · show V c main_v84 (((cfg5.win 0).blk t).view.emb (ix2 p q)) = V c main_v84 (((cfg5.win 4).blk t).view.emb (ix2 p q))
    refine congrArg _ (funext fun a => Fin.ext ?_)
    match a with
    | ⟨0, _⟩ =>
      show win5_0.index t (0 : Fin 2) * 5000 + 1 * p.val = win5_4.index t (0 : Fin 2) * 5000 + 1 * p.val
      omega
    | ⟨1, _⟩ =>
      show win5_0.index t (1 : Fin 2) * 128 + 1 * q.val = win5_4.index t (1 : Fin 2) * 128 + 1 * q.val
      omega
  · show V c main_v71 (((cfg5.win 1).blk t).view.emb (ix2 p q)) = V c main_v71 (((cfg5.win 4).blk t).view.emb (ix2 p q))
    refine congrArg _ (funext fun a => Fin.ext ?_)
    match a with
    | ⟨0, _⟩ =>
      show win5_1.index t (0 : Fin 2) * 5000 + 1 * p.val = win5_4.index t (0 : Fin 2) * 5000 + 1 * p.val
      omega
    | ⟨1, _⟩ =>
      show win5_1.index t (1 : Fin 2) * 128 + 1 * q.val = win5_4.index t (1 : Fin 2) * 128 + 1 * q.val
      omega
  · show V c main_v28 (((cfg5.win 2).blk t).view.emb (ix2 p (0 : Fin 1)))
      = V c main_v28 (ix2 (Cert.Gcn.row (((cfg5.win 4).blk t).view.emb (ix2 p q))) (0 : Fin 1))
    refine congrArg _ (funext fun a => Fin.ext ?_)
    match a with
    | ⟨0, _⟩ =>
      show win5_2.index t (0 : Fin 2) * 5000 + 1 * p.val = win5_4.index t (0 : Fin 2) * 5000 + 1 * p.val
      omega
    | ⟨1, _⟩ =>
      show win5_2.index t (1 : Fin 2) * 1 + 1 * 0 = 0
      omega
  · show V c main_v87 (((cfg5.win 3).blk t).view.emb (ix2 (0 : Fin 1) q))
      = V c main_v87 (ix2 (0 : Fin 1) (Cert.Gcn.col (((cfg5.win 4).blk t).view.emb (ix2 p q))))
    refine congrArg _ (funext fun a => Fin.ext ?_)
    match a with
    | ⟨0, _⟩ =>
      show win5_3.index t (0 : Fin 2) * 1 + 1 * 0 = 0
      omega
    | ⟨1, _⟩ =>
      show win5_3.index t (1 : Fin 2) * 128 + 1 * q.val = win5_4.index t (1 : Fin 2) * 128 + 1 * q.val
      omega

/-- An index of the output array is in point `t`'s block iff each coordinate is in the block's range on its axis. -/
theorem memBlock5 (t : Fin cfg5.N) (i : S50000x128.Idx) :
    i ∈ ((cfg5.win 4).blk t).view.set ↔ ∀ a : Fin 2, win5_4.index t a * S5000x128.size a ≤ (i a).val
      ∧ (i a).val < win5_4.index t a * S5000x128.size a + S5000x128.size a := by
  show i ∈ ((View.whole main_v88).slice (win5_4.rect t)).set ↔ _
  rw [View.set_slice_whole, Rect.mem_set_unit]
  exact Iff.rfl

/-- The ten row blocks cover the output array: row `r` is in the block of point `r / 5000`. -/
theorem covered5 (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  have hN : cfg5.N = 10 := N_5
  obtain ⟨t, ht⟩ : ∃ t : Fin cfg5.N, t.val = (i 0).val / 5000 := ⟨⟨(i 0).val / 5000, by omega⟩, rfl⟩
  obtain ⟨-, -, -, -, -, -, -, -, e40, e41⟩ := indexMaps5 t
  refine ⟨t, flush5_4 t, ?_⟩
  rw [memBlock5]
  intro a
  match a with
  | ⟨0, _⟩ =>
    show win5_4.index t (0 : Fin 2) * 5000 ≤ (i 0).val ∧ (i 0).val < win5_4.index t (0 : Fin 2) * 5000 + 5000
    omega
  | ⟨1, _⟩ =>
    show win5_4.index t (1 : Fin 2) * 128 ≤ (i 1).val ∧ (i 1).val < win5_4.index t (1 : Fin 2) * 128 + 128
    omega

/-- After the region's ten write-backs the output array is `combine agg h s b` of the arrays the region was entered
    with: every point writes its block of that one function, and the blocks cover the array. -/
theorem combine5 (V : (c : Dev nD) → (b : Ref sig .tc) → Buf (Elt Ideal) ((c : Thread nD τ).loc b)) (c : Dev nD) :
    (dat5 (F := Ideal) V c).arrAt 4 cfg5.N
      = Cert.Gcn.combine (V c main_v84) (V c main_v71) (V c main_v28) (V c main_v87) :=
  (dat5 (F := Ideal) V c).arrAt_eq_of_cover 4
    (Cert.Gcn.combine (V c main_v84) (V c main_v71) (V c main_v28) (V c main_v87))
    (fun t _ => flushedEq5 V c t) covered5

end Cert.KernelIdeal.GcnRegion

end
-- ==== Proof.Bridge.lean ====
/-
  The two node-wise steps of a layer, as the reference writes them with whole-array host operations, are the index-by-index
  functions `Cert.Gcn.denseProduct` and `Cert.Gcn.combine`:

  * the host's `dot_general` contracting axis 1 of `x` with axis 0 of `W` is, at the extended reals, the plain sum
    `∑ k, x[r, k] * W[k, c]` (no accumulator, no schedule);
  * `max (agg + h * bc(s) + bc(b)) bc(0)`, with `bc` the broadcasts of a [50000,1] column, a [1,128] row and a scalar
    to [50000,128], reads at `(r, c)` as `max (agg[r,c] + h[r,c] * s[r,0] + b[0,c]) 0`;
  * a vector of length n viewed as an [n,1] column (or a [1,n] row) is the same array whether it is written as a reshape
    or as a broadcast along the new unit axis.
-/
import proofs.«164881_j16020228014637_1_alg».proof.Proof.Gen.ReferenceIdeal.Read
import proofs.«164881_j16020228014637_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.GcnBridge

open Cert.ReferenceIdeal Cert.ReferenceIdeal.Gen Idealize.ShloMosaic Idealize.ShloMosaic.ValueIdx Cert.Gcn

/-- The host's dense product of the node features with a layer's weight is the sum over the contracted coordinate. -/
theorem dense_bridge (x : FVec Ideal S50000x128 .f32) (w : FVec Ideal S128x128 .f32) :
    Cert.Gcn.denseProduct x w = Host.dotGeneral dot_S50000x128_S128x128_S50000x128_1_0_0_1_n_n none x w := by
  funext i
  simp only [Host.dotGeneral, Cert.Gcn.denseProduct]
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx i ((contrEquiv1 dot_S50000x128_S128x128_S50000x128_1_0_0_1_n_n 128 rfl rfl).symm k) = ix2 (row i) k := funext fun a => Fin.ext (by
    match a with
    | ⟨0, _⟩ => exact Cert.ReferenceIdeal.Read.lhs_main_v30_0 _ _
    | ⟨1, _⟩ => exact (Cert.ReferenceIdeal.Read.lhs_main_v30_1 _ _).trans hk)
  have er : dot_S50000x128_S128x128_S50000x128_1_0_0_1_n_n.rhsIdx i ((contrEquiv1 dot_S50000x128_S128x128_S50000x128_1_0_0_1_n_n 128 rfl rfl).symm k) = ix2 k (col i) := funext fun a => Fin.ext (by
    match a with
    | ⟨0, _⟩ => exact (Cert.ReferenceIdeal.Read.rhs_main_v30_0 _ _).trans hk
    | ⟨1, _⟩ => exact Cert.ReferenceIdeal.Read.rhs_main_v30_1 _ _)
  rw [el, er]

/-- The reference's combine step, three broadcasts and a maximum against the zero splat, read at an index. -/
theorem combine_bridge (agg h : FVec Ideal S50000x128 .f32) (s : FVec Ideal S50000x1 .f32) (b : FVec Ideal S1x128 .f32) :
    Cert.Gcn.combine agg h s b
      = maximumf (addf (addf agg (mulf h (broadcastInDim S50000x128 ![0, 1] bcast_S50000x1_S50000x128_0_1 s)))
          (broadcastInDim S50000x128 ![0, 1] bcast_S1x128_S50000x128_0_1 b))
          (broadcastInDim S50000x128 ![] bcast_S_S50000x128 (constant S_ .f32 0x00000000#32)) := by
  funext j
  have es : broadcastInDim S50000x128 ![0, 1] bcast_S50000x1_S50000x128_0_1 s j = s (ix2 (row j) (0 : Fin 1)) :=
    broadcastInDim_apply ![0, 1] bcast_S50000x1_S50000x128_0_1 s j (ix2 (row j) (0 : Fin 1)) (fun a => match a with
      | ⟨0, _⟩ => rfl
      | ⟨1, _⟩ => rfl)
  have eb : broadcastInDim S50000x128 ![0, 1] bcast_S1x128_S50000x128_0_1 b j = b (ix2 (0 : Fin 1) (col j)) :=
    broadcastInDim_apply ![0, 1] bcast_S1x128_S50000x128_0_1 b j (ix2 (0 : Fin 1) (col j)) (fun a => match a with
      | ⟨0, _⟩ => rfl
      | ⟨1, _⟩ => rfl)
  show max (agg j + h j * s (ix2 (row j) (0 : Fin 1)) + b (ix2 (0 : Fin 1) (col j))) (Ideal.ofBits .f32 0x00000000#32)
    = max (agg j + h j * broadcastInDim S50000x128 ![0, 1] bcast_S50000x1_S50000x128_0_1 s j
        + broadcastInDim S50000x128 ![0, 1] bcast_S1x128_S50000x128_0_1 b j) (Ideal.ofBits .f32 0x00000000#32)
  rw [es, eb]

/-- A length-50000 vector as a one-column array: the reshape is the broadcast along the new unit axis. -/
theorem col_bridge (v : FVec Ideal S50000 .f32) (h : S50000.ShapeCasts S50000x1) :
    shapeCast S50000x1 v h = broadcastInDim S50000x1 ![0] bcast_S50000_S50000x1_0 v := by
  funext j
  rw [shapeCast_apply v h j (ix1 (row j)) (by
      rewrite [Shape.rowMajor_val_one, Shape.rowMajor_val_two]
      have h1 : (j 1).val < 1 := (j 1).isLt
      show (j 0).val = (j 0).val * 1 + (j 1).val; omega),
    broadcastInDim_apply ![0] bcast_S50000_S50000x1_0 v j (ix1 (row j)) (fun a => match a with
      | ⟨0, _⟩ => rfl)]

/-- A length-128 vector as a one-row array: the reshape is the broadcast along the new unit axis. -/
theorem row_bridge (u : FVec Ideal S128 .f32) (h : S128.ShapeCasts S1x128) :
    shapeCast S1x128 u h = broadcastInDim S1x128 ![1] bcast_S128_S1x128_1 u := by
  funext j
  rw [shapeCast_apply u h j (ix1 (col j)) (by
      rewrite [Shape.rowMajor_val_one, Shape.rowMajor_val_two]
      have h0 : (j 0).val < 1 := (j 0).isLt
      show (j 1).val = (j 0).val * 128 + (j 1).val; omega),
    broadcastInDim_apply ![1] bcast_S128_S1x128_1 u j (ix1 (col j)) (fun a => match a with
      | ⟨0, _⟩ => rfl)]

end Cert.ReferenceIdeal.GcnBridge

end
-- ==== Proof.Walk.lean ====
/-
  The value of the idealized kernel program, read through its thirteen segments, is the reference's value.

  The kernel's run ends with the result buffer at the contents the last segment leaves (`W13`). Going back one segment
  at a time: what a stretch of host operations leaves in a buffer is the operations' functions applied to what the
  stretch found; what a region leaves in its output array is `Cert.Gcn.denseProduct` (a matmul region) or
  `Cert.Gcn.combine` (a combine region) of what it found in its input arrays, and every other buffer, an input array
  included, is as the region found it. After thirteen such steps the result is one term over the seven argument arrays:
  the reference's own chain of host operations — the degree normalisation, and per layer the gather along the edge
  sources, the per-edge scale, the scatter-add into the edge targets, then the pooling and the projection — with
  `denseProduct` where the reference contracts with `dot_general` and `combine` where it adds, broadcasts and takes the
  maximum with zero. Those are equal functions (the bridge lemmas), a vector viewed as a one-column or one-row array is
  the same array whether reshaped or broadcast along the unit axis, and the two terms then coincide.
-/
import proofs.«164881_j16020228014637_1_alg».proof.Proof.Gen.KernelIdeal.Frame
import proofs.«164881_j16020228014637_1_alg».proof.Proof.Gen.ReferenceIdeal.Run
import proofs.«164881_j16020228014637_1_alg».proof.Proof.Spec
import proofs.«164881_j16020228014637_1_alg».proof.Proof.DenseRegion0
import proofs.«164881_j16020228014637_1_alg».proof.Proof.DenseRegion2
import proofs.«164881_j16020228014637_1_alg».proof.Proof.DenseRegion4
import proofs.«164881_j16020228014637_1_alg».proof.Proof.CombineRegion1
import proofs.«164881_j16020228014637_1_alg».proof.Proof.CombineRegion3
import proofs.«164881_j16020228014637_1_alg».proof.Proof.CombineRegion5
import proofs.«164881_j16020228014637_1_alg».proof.Proof.Bridge
import Idealize.ShloMosaic.Lib.StableHlo.Run

set_option maxRecDepth 16384

noncomputable section

namespace Cert.GcnWalk

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

theorem out2 : W2 m ρ c (Proc.devRef .tc main_v31) = Cert.Gcn.denseProduct (W1 m ρ c (Proc.devRef .tc main_arg0)) (W1 m ρ c (Proc.devRef .tc main_v30)) :=
  (W2_arr m ρ c 2).trans (Cert.KernelIdeal.GcnRegion.dense0 (V1 m ρ) c)
theorem out4 : W4 m ρ c (Proc.devRef .tc main_v48) = Cert.Gcn.combine (W3 m ρ c (Proc.devRef .tc main_v44)) (W3 m ρ c (Proc.devRef .tc main_v31)) (W3 m ρ c (Proc.devRef .tc main_v28)) (W3 m ρ c (Proc.devRef .tc main_v47)) :=
  (W4_arr m ρ c 4).trans (Cert.KernelIdeal.GcnRegion.combine1 (V3 m ρ) c)
theorem out6 : W6 m ρ c (Proc.devRef .tc main_v51) = Cert.Gcn.denseProduct (W5 m ρ c (Proc.devRef .tc main_v48)) (W5 m ρ c (Proc.devRef .tc main_v50)) :=
  (W6_arr m ρ c 2).trans (Cert.KernelIdeal.GcnRegion.dense2 (V5 m ρ) c)
theorem out8 : W8 m ρ c (Proc.devRef .tc main_v68) = Cert.Gcn.combine (W7 m ρ c (Proc.devRef .tc main_v64)) (W7 m ρ c (Proc.devRef .tc main_v51)) (W7 m ρ c (Proc.devRef .tc main_v28)) (W7 m ρ c (Proc.devRef .tc main_v67)) :=
  (W8_arr m ρ c 4).trans (Cert.KernelIdeal.GcnRegion.combine3 (V7 m ρ) c)
theorem out10 : W10 m ρ c (Proc.devRef .tc main_v71) = Cert.Gcn.denseProduct (W9 m ρ c (Proc.devRef .tc main_v68)) (W9 m ρ c (Proc.devRef .tc main_v70)) :=
  (W10_arr m ρ c 2).trans (Cert.KernelIdeal.GcnRegion.dense4 (V9 m ρ) c)
theorem out12 : W12 m ρ c (Proc.devRef .tc main_v88) = Cert.Gcn.combine (W11 m ρ c (Proc.devRef .tc main_v84)) (W11 m ρ c (Proc.devRef .tc main_v71)) (W11 m ρ c (Proc.devRef .tc main_v28)) (W11 m ρ c (Proc.devRef .tc main_v87)) :=
  (W12_arr m ρ c 4).trans (Cert.KernelIdeal.GcnRegion.combine5 (V11 m ρ) c)

/-- The self-loop column is an INPUT of each combine region: the region stages it and never writes it back. -/
theorem in4 : W4 m ρ c (Proc.devRef .tc main_v28) = W3 m ρ c (Proc.devRef .tc main_v28) :=
  (W4_arr m ρ c 2).trans (((dat1 (V3 m ρ) c).arrAt_in 2 rfl _).trans (A_eq1 (V3 m ρ) c 2))
theorem in8 : W8 m ρ c (Proc.devRef .tc main_v28) = W7 m ρ c (Proc.devRef .tc main_v28) :=
  (W8_arr m ρ c 2).trans (((dat3 (V7 m ρ) c).arrAt_in 2 rfl _).trans (A_eq3 (V7 m ρ) c 2))

/-- The self-loop column the kernel program reshapes once, before the first region, is the node vector of self-loop
    weights broadcast along a new unit axis, which is how the reference views it. -/
theorem col28 : W1 m ρ c (Proc.devRef .tc main_v28)
    = broadcastInDim Cert.ReferenceIdeal.S50000x1 ![0] Cert.ReferenceIdeal.Gen.bcast_S50000_S50000x1_0
        (W1 m ρ c (Proc.devRef .tc main_v27)) := by
  conv_lhs => simp (disch := decide) only [W1, hostOps0, after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne']
  conv_rhs => simp (disch := decide) only [W1, hostOps0, after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne']
  exact Cert.ReferenceIdeal.GcnBridge.col_bridge _ _

/-- Each layer's bias, reshaped by the kernel program to a one-row array, is the bias vector broadcast along a new unit
    axis, which is how the reference views it. -/
theorem row47 : W3 m ρ c (Proc.devRef .tc main_v47)
    = broadcastInDim Cert.ReferenceIdeal.S1x128 ![1] Cert.ReferenceIdeal.Gen.bcast_S128_S1x128_1
        (W3 m ρ c (Proc.devRef .tc main_v46)) := by
  conv_lhs => simp (disch := decide) only [W3, hostOps1, after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne']
  conv_rhs => simp (disch := decide) only [W3, hostOps1, after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne']
  exact Cert.ReferenceIdeal.GcnBridge.row_bridge _ _
theorem row67 : W7 m ρ c (Proc.devRef .tc main_v67)
    = broadcastInDim Cert.ReferenceIdeal.S1x128 ![1] Cert.ReferenceIdeal.Gen.bcast_S128_S1x128_1
        (W7 m ρ c (Proc.devRef .tc main_v66)) := by
  conv_lhs => simp (disch := decide) only [W7, hostOps3, after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne']
  conv_rhs => simp (disch := decide) only [W7, hostOps3, after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne']
  exact Cert.ReferenceIdeal.GcnBridge.row_bridge _ _
theorem row87 : W11 m ρ c (Proc.devRef .tc main_v87)
    = broadcastInDim Cert.ReferenceIdeal.S1x128 ![1] Cert.ReferenceIdeal.Gen.bcast_S128_S1x128_1
        (W11 m ρ c (Proc.devRef .tc main_v86)) := by
  conv_lhs => simp (disch := decide) only [W11, hostOps5, after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne']
  conv_rhs => simp (disch := decide) only [W11, hostOps5, after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne']
  exact Cert.ReferenceIdeal.GcnBridge.row_bridge _ _

set_option maxRecDepth 200000 in
set_option maxHeartbeats 8000000 in
/-- THE TWO VALUES ARE ONE: from memories that agree on the seven arguments, the contents the kernel program's last
    segment leaves in its result buffer are the reference's composed term. -/
theorem value_eq
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6)) :
    W13 m ρ c (Proc.devRef .tc main_v104) = Cert.ReferenceIdeal.Value.res_main_v121 m' c := by
  unfold Cert.ReferenceIdeal.Value.res_main_v121
  rw [h0, h1, h2, h3, h4, h5, h6]
  conv_lhs =>
    change StableHlo.after hostOps6 (W12 m ρ c) (Proc.devRef .tc main_v104)
    simp (disch := decide) only [hostOps6, after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne']
    rw [out12 m ρ c]
    simp only [W12_of_ne m ρ c main_v1 (by decide), W12_of_ne m ρ c main_v3 (by decide), W12_of_ne m ρ c main_v26 (by decide), W12_of_ne m ρ c main_arg2 (by decide), W12_of_ne m ρ c main_arg3 (by decide), W12_of_ne m ρ c main_arg4 (by decide), W12_of_ne m ρ c main_arg5 (by decide), W12_of_ne m ρ c main_arg6 (by decide)]
    rw [row87 m ρ c]
    simp (disch := decide) only [W11, hostOps5, after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne']
    rw [out10 m ρ c]
    simp only [W10_of_ne m ρ c main_v1 (by decide), W10_of_ne m ρ c main_v3 (by decide), W10_of_ne m ρ c main_v26 (by decide), W10_of_ne m ρ c main_arg2 (by decide), W10_of_ne m ρ c main_arg3 (by decide), W10_of_ne m ρ c main_arg4 (by decide), W10_of_ne m ρ c main_arg5 (by decide), W10_of_ne m ρ c main_arg6 (by decide), W10_of_ne m ρ c main_v28 (by decide)]
    simp (disch := decide) only [W9, hostOps4, after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne']
    rw [out8 m ρ c]
    simp only [W8_of_ne m ρ c main_v1 (by decide), W8_of_ne m ρ c main_v3 (by decide), W8_of_ne m ρ c main_v26 (by decide), W8_of_ne m ρ c main_arg2 (by decide), W8_of_ne m ρ c main_arg3 (by decide), W8_of_ne m ρ c main_arg4 (by decide), W8_of_ne m ρ c main_arg5 (by decide), W8_of_ne m ρ c main_arg6 (by decide), in8 m ρ c]
    rw [row67 m ρ c]
    simp (disch := decide) only [W7, hostOps3, after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne']
    rw [out6 m ρ c]
    simp only [W6_of_ne m ρ c main_v1 (by decide), W6_of_ne m ρ c main_v3 (by decide), W6_of_ne m ρ c main_v26 (by decide), W6_of_ne m ρ c main_arg2 (by decide), W6_of_ne m ρ c main_arg3 (by decide), W6_of_ne m ρ c main_arg4 (by decide), W6_of_ne m ρ c main_arg5 (by decide), W6_of_ne m ρ c main_arg6 (by decide), W6_of_ne m ρ c main_v28 (by decide)]
    simp (disch := decide) only [W5, hostOps2, after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne']
    rw [out4 m ρ c]
    simp only [W4_of_ne m ρ c main_v1 (by decide), W4_of_ne m ρ c main_v3 (by decide), W4_of_ne m ρ c main_v26 (by decide), W4_of_ne m ρ c main_arg2 (by decide), W4_of_ne m ρ c main_arg3 (by decide), W4_of_ne m ρ c main_arg4 (by decide), W4_of_ne m ρ c main_arg5 (by decide), W4_of_ne m ρ c main_arg6 (by decide), in4 m ρ c]
    rw [row47 m ρ c]
    simp (disch := decide) only [W3, hostOps1, after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne']
    rw [out2 m ρ c]
    simp only [W2_of_ne m ρ c main_v1 (by decide), W2_of_ne m ρ c main_v3 (by decide), W2_of_ne m ρ c main_v26 (by decide), W2_of_ne m ρ c main_arg2 (by decide), W2_of_ne m ρ c main_arg3 (by decide), W2_of_ne m ρ c main_arg4 (by decide), W2_of_ne m ρ c main_arg5 (by decide), W2_of_ne m ρ c main_arg6 (by decide), W2_of_ne m ρ c main_v28 (by decide)]
    rw [col28 m ρ c]
    simp (disch := decide) only [W1, hostOps0, after_cons, after_nil,
      nullary_result', unary_result', binary_result', ternary_result', quaternary_result', reshape_result', nary_result',
      unaryIndexed_result', binaryIndexed_result',
      nullary_result_ne', unary_result_ne', binary_result_ne', ternary_result_ne', quaternary_result_ne', reshape_result_ne',
      nary_result_ne', unaryIndexed_result_ne', binaryIndexed_result_ne']
    simp only [Cert.ReferenceIdeal.GcnBridge.dense_bridge, Cert.ReferenceIdeal.GcnBridge.combine_bridge]
  rfl

end Cert.GcnWalk

end
-- ==== Proof.lean ====
/-
  The claims of the certificate for a three-layer graph-convolution forward pass.

  Each layer computes `h = x · W`, sends `h` along the edges (a gather, a per-edge scale, a scatter-add into `agg`) and
  combines `relu (agg + h * s + b)`; the result is pooled per graph and projected. The kernel program does the dense
  product and the combine in pipelined regions over row blocks of 5000 nodes and everything else with the same host
  operations as the reference, so at the extended reals the two programs differ only in HOW the two node-wise steps are
  computed: ten row blocks of a sum over `k` against one whole-array contraction, ten row blocks of a pointwise
  expression against whole-array broadcasts. Both are the same function of the arrays index by index
  (`Cert.Gcn.denseProduct`, `Cert.Gcn.combine`), no law of arithmetic is needed, and the precondition is never opened.

  The frames are the generated ones (the reference's is its generated run with the result dropped); nothing was
  rewritten by the idealization, so `preserves` is trivial; `algebraic` sets the kernel's run, with its result named as
  the fold of its thirteen segments, beside the reference's run and identifies the two values (`Cert.GcnWalk.value_eq`).
-/
import proofs.«164881_j16020228014637_1_alg».proof.Defs
import proofs.«164881_j16020228014637_1_alg».proof.Proof.Gen.Kernel
import proofs.«164881_j16020228014637_1_alg».proof.Proof.Gen.Kernel.Skeleton
import proofs.«164881_j16020228014637_1_alg».proof.Proof.Gen.Kernel.Launch
import proofs.«164881_j16020228014637_1_alg».proof.Proof.Gen.Kernel.Points
import proofs.«164881_j16020228014637_1_alg».proof.Proof.Gen.Kernel.Frame
import proofs.«164881_j16020228014637_1_alg».proof.Proof.Gen.KernelIdeal
import proofs.«164881_j16020228014637_1_alg».proof.Proof.Gen.KernelIdeal.Skeleton
import proofs.«164881_j16020228014637_1_alg».proof.Proof.Gen.KernelIdeal.Launch
import proofs.«164881_j16020228014637_1_alg».proof.Proof.Gen.KernelIdeal.Points
import proofs.«164881_j16020228014637_1_alg».proof.Proof.Gen.KernelIdeal.Frame
import proofs.«164881_j16020228014637_1_alg».proof.Proof.Gen.ReferenceIdeal
import proofs.«164881_j16020228014637_1_alg».proof.Proof.Gen.ReferenceIdeal.Run
import proofs.«164881_j16020228014637_1_alg».proof.Proof.Gen.Pre_finite_inputs
import proofs.«164881_j16020228014637_1_alg».proof.Proof.KernelRun
import proofs.«164881_j16020228014637_1_alg».proof.Proof.Walk
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the seven arguments both programs run, and the pooled, projected node features they end
    with are the same 64 × 64 array of extended reals. -/
theorem algebraic : Cert.algebraic_KernelIdeal_ReferenceIdeal := by
  intro m ρ m' ρ' _ hagree
  refine ⟨fun c => Cert.KernelIdeal.Gen.W13 m ρ c (Proc.devRef .tc Cert.KernelIdeal.main_v104),
    Cert.KernelIdeal.GcnRun.run_value m ρ, ?_⟩
  refine (θ_run Cert.ReferenceIdeal.defs _ _).mono (fun _ h c => ⟨(h c).1.trans ?_, (h c).2⟩)
    (Cert.ReferenceIdeal.Value.run (F := Ideal) m' ρ')
  exact (Cert.GcnWalk.value_eq m ρ c m' (hagree c).1 (hagree c).2.1 (hagree c).2.2.1 (hagree c).2.2.2.1
    (hagree c).2.2.2.2.1 (hagree c).2.2.2.2.2.1 (hagree c).2.2.2.2.2.2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
